-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S16x1024x1024 : Shape := ⟨3, ![16, 1024, 1024]⟩
abbrev S16x1024 : Shape := ⟨2, ![16, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S16x1024x1024 : S_.BroadcastsInDim S16x1024x1024 (![] : Fin 0 → Fin S16x1024x1024.rank)
  reducesTo_S16x1024x1024_S_d0_1_2 : S16x1024x1024.ReducesTo [0, 1, 2] S_
  bcast_S_S16x1024 : S_.BroadcastsInDim S16x1024 (![] : Fin 0 → Fin S16x1024.rank)
  reducesTo_S16x1024_S_d0_1 : S16x1024.ReducesTo [0, 1] S_

variable [Facts]

def fn {F : FTy → Type} [FloatOps F] (main_arg0 : FVec F S2048x1024 .f32) (main_arg1 : FVec F S16x1024x1024 .f32) (main_arg2 : FVec F S16x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S16x1024x1024 .f32 := Host.absf main_arg1
  let main_cst_0 : FVec F S_ .f32 := constant S_ .f32 0x7F800000#32
  let main_v5 : FVec F S16x1024x1024 .f32 := broadcastInDim S16x1024x1024 ![] bcast_S_S16x1024x1024 main_cst_0
  let main_v6 : IVec S16x1024x1024 1 := cmpf .olt main_v4 main_v5
  let main_c_1 : IVec S_ 1 := constantI S_ 1 1#1
  let main_v7 : IVec S_ 1 := (fun x v => Host.reduce IntOp.andi x v reducesTo_S16x1024x1024_S_d0_1_2 h_S_) main_v6 main_c_1
  let main_v8 : IVec S_ 1 := andi main_v3 main_v7
  let main_v9 : FVec F S16x1024 .f32 := Host.absf main_arg2
  let main_cst_2 : FVec F S_ .f32 := constant S_ .f32 0x7F800000#32
  let main_v10 : FVec F S16x1024 .f32 := broadcastInDim S16x1024 ![] bcast_S_S16x1024 main_cst_2
  let main_v11 : IVec S16x1024 1 := cmpf .olt main_v9 main_v10
  let main_c_3 : IVec S_ 1 := constantI S_ 1 1#1
  let main_v12 : IVec S_ 1 := (fun x v => Host.reduce IntOp.andi x v reducesTo_S16x1024_S_d0_1 h_S_) main_v11 main_c_3
  let main_v13 : IVec S_ 1 := andi main_v8 main_v12
  main_v13
-- ==== Kernel.lean ====
abbrev S2048x1024 : Shape := ⟨2, ![2048, 1024]⟩
abbrev S16x1024x1024 : Shape := ⟨3, ![16, 1024, 1024]⟩
abbrev S16x1024 : Shape := ⟨2, ![16, 1024]⟩
abbrev S16384x1024 : Shape := ⟨2, ![16384, 1024]⟩
abbrev S1x16384 : Shape := ⟨2, ![1, 16384]⟩
abbrev S2048x16384 : Shape := ⟨2, ![2048, 16384]⟩
abbrev S512x1024 : Shape := ⟨2, ![512, 1024]⟩
abbrev S1x2048 : Shape := ⟨2, ![1, 2048]⟩
abbrev S512x2048 : Shape := ⟨2, ![512, 2048]⟩

abbrev nBuf : Space → Nat
  | .hbm => 6
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S16x1024x1024, .f32⟩
  | .hbm, ⟨2, _⟩ => ⟨S16x1024, .f32⟩
  | .hbm, ⟨3, _⟩ => ⟨S16384x1024, .f32⟩
  | .hbm, ⟨4, _⟩ => ⟨S1x16384, .f32⟩
  | .hbm, ⟨5, _⟩ => ⟨S2048x16384, .f32⟩
  | .local _ .vmem, ⟨0, _⟩ => ⟨S512x1024, .f32⟩
  | .local _ .vmem, ⟨1, _⟩ => ⟨S512x1024, .f32⟩
  | .local _ .vmem, ⟨2, _⟩ => ⟨S2048x1024, .f32⟩
  | .local _ .vmem, ⟨3, _⟩ => ⟨S2048x1024, .f32⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S16x1024x1024_S16384x1024 : S16x1024x1024.ShapeCasts S16384x1024
  shapeCasts_S16x1024_S1x16384 : S16x1024.ShapeCasts S1x16384
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  dot_S512x1024_S2048x1024_S512x2048_1_1_0_0_n_n_wf : DotDims.WF S512x1024 S2048x1024 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S2048x1024.size a
  hwx0_0 : ∀ i : grid0.Coords, EltTy.bits .f32 = 32 ∨ (Rect.block (s := S2048x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S16384x1024.size a
  hwx0_1 : ∀ i : grid0.Coords, EltTy.bits .f32 = 32 ∨ (Rect.block (s := S16384x1024) S2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x16384.size a
  hwx0_2 : ∀ i : grid0.Coords, EltTy.bits .f32 = 32 ∨ (Rect.block (s := S1x16384) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S2048x16384.size a
  hwx0_3 : ∀ i : grid0.Coords, EltTy.bits .f32 = 32 ∨ (Rect.block (s := S2048x16384) S512x2048.size (cc0_transform_3 i) (hinb0_3 i)).WholeWords (EltTy.packing .f32)

variable [Facts₀]

def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x1024 : Shape := ⟨2, ![2048, 1024]⟩
abbrev S16x1024x1024 : Shape := ⟨3, ![16, 1024, 1024]⟩
abbrev S16x1024 : Shape := ⟨2, ![16, 1024]⟩
abbrev S2048x16x1024 : Shape := ⟨3, ![2048, 16, 1024]⟩
abbrev S1x16x1024 : Shape := ⟨3, ![1, 16, 1024]⟩
abbrev S2048x16384 : Shape := ⟨2, ![2048, 16384]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S16x1024x1024, .f32⟩
  | .hbm, ⟨2, _⟩ => ⟨S16x1024, .f32⟩
  | .hbm, ⟨3, _⟩ => ⟨S2048x16x1024, .f32⟩
  | .hbm, ⟨4, _⟩ => ⟨S1x16x1024, .f32⟩
  | .hbm, ⟨5, _⟩ => ⟨S2048x16x1024, .f32⟩
  | .hbm, ⟨6, _⟩ => ⟨S2048x16x1024, .f32⟩
  | .hbm, ⟨7, _⟩ => ⟨S2048x16384, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S16x1024_S1x16x1024_1_2 : S16x1024.BroadcastsInDim S1x16x1024 (![1, 2] : Fin 2 → Fin S1x16x1024.rank)
  bcast_S1x16x1024_S2048x16x1024_0_1_2 : S1x16x1024.BroadcastsInDim S2048x16x1024 (![0, 1, 2] : Fin 3 → Fin S2048x16x1024.rank)
  shapeCasts_S2048x16x1024_S2048x16384 : S2048x16x1024.ShapeCasts S2048x16384
  dot_S2048x1024_S16x1024x1024_S2048x16x1024_1_2_0_01_n_n_wf : DotDims.WF S2048x1024 S16x1024x1024 S2048x16x1024 [1] [2] [0] [0, 1] [] []

variable [Facts₀]

def dot_S2048x1024_S16x1024x1024_S2048x16x1024_1_2_0_01_n_n : DotDims S2048x1024 S16x1024x1024 S2048x16x1024 where
  lhsContracting := [1]
  rhsContracting := [2]
  lhsNonContracting := [0]
  rhsNonContracting := [0, 1]
  lhsBatch := []
  rhsBatch := []
  wf := dot_S2048x1024_S16x1024x1024_S2048x16x1024_1_2_0_01_n_n_wf

class Facts : Prop extends Facts₀ where

variable [Facts]
-- ==== Proof.Spec.lean ====
/-
  Sixteen linear layers applied to one batch, their outputs laid side by side.

  The arguments are a batch `x` of 2048 rows of 1024 numbers, sixteen weight matrices `W r` (each 1024 outputs by
  1024 inputs) and sixteen bias vectors `b r`. The result has 2048 rows of 16·1024 = 16384 columns: column
  `n = r·1024 + o` of row `a` is output `o` of layer `r` on row `a`,

      y a n = (Σ k, x a k · W r o k) + b r o        with r = n / 1024, o = n % 1024.

  This module only states that function, over the extended reals, index by index. The sum is written with the batch
  entry on the left of each product and the weight on the right, and the bias added on the right of the sum: both
  programs compute it in exactly this arrangement, so no algebraic law (and no finiteness of the inputs) is needed to
  join them.
-/
import Idealize.ShloMosaic.PureOps.Ideal
import Idealize.ShloMosaic.Lib.ValueIdx

noncomputable section

namespace Cert.Stacked

open Idealize.ShloMosaic Idealize.ShloMosaic.ValueIdx

/-- The layer that flat output column `n = r·1024 + o` belongs to: `r = n / 1024`. -/
def layer (n : Fin 16384) : Fin 16 := ⟨n.val / 1024, by have := n.isLt; omega⟩

/-- Its position among that layer's outputs: `o = n % 1024`. -/
def slot (n : Fin 16384) : Fin 1024 := ⟨n.val % 1024, by have := n.isLt; omega⟩

theorem layer_val (n : Fin 16384) : (layer n).val = n.val / 1024 := rfl
theorem slot_val (n : Fin 16384) : (slot n).val = n.val % 1024 := rfl

/-- One entry of the result: row `a`'s inner product with the weight row of column `n`'s layer and slot, plus that
    layer's bias at the slot. -/
def entry (x : FVec Ideal ⟨2, ![2048, 1024]⟩ .f32) (W : FVec Ideal ⟨3, ![16, 1024, 1024]⟩ .f32)
    (b : FVec Ideal ⟨2, ![16, 1024]⟩ .f32) (a : Fin 2048) (n : Fin 16384) : EReal :=
  (∑ k : Fin 1024, x (ix2 a k) * W (ix3 (layer n) (slot n) k)) + b (ix2 (layer n) (slot n))

/-- The whole result array as one function of the three argument arrays. -/
def G (x : FVec Ideal ⟨2, ![2048, 1024]⟩ .f32) (W : FVec Ideal ⟨3, ![16, 1024, 1024]⟩ .f32)
    (b : FVec Ideal ⟨2, ![16, 1024]⟩ .f32) : FVec Ideal ⟨2, ![2048, 16384]⟩ .f32 :=
  fun i => entry x W b (i 0) (i 1)

theorem G_ix2 (x : FVec Ideal ⟨2, ![2048, 1024]⟩ .f32) (W : FVec Ideal ⟨3, ![16, 1024, 1024]⟩ .f32)
    (b : FVec Ideal ⟨2, ![16, 1024]⟩ .f32) (a : Fin 2048) (n : Fin 16384) : G x W b (ix2 a n) = entry x W b a n := rfl

end Cert.Stacked

end
-- ==== Proof.RefValue.lean ====
/-
  The reference read at an index.

  The reference contracts the batch with all sixteen weight matrices at once into a 2048 × 16 × 1024 array
  (entry (a, r, o) is Σ k, x a k · W r o k), adds the biases broadcast along the batch axis, and flattens the last two
  axes. Flat column `n` of the result is therefore entry (a, n / 1024, n % 1024) of the sum, which is the stated
  function: the only work is the arithmetic of the flattening, `(a·16384 + n) / 16384 = a`,
  `(a·16384 + n) / 1024 % 16 = n / 1024` and `(a·16384 + n) % 1024 = n % 1024`.
-/
import proofs.«113440_j14688788152638_2_alg».proof.Proof.Gen.ReferenceIdeal.Read
import proofs.«113440_j14688788152638_2_alg».proof.Proof.Spec

noncomputable section

namespace Cert.Stacked.Ref

open Idealize.ShloMosaic Idealize.ShloMosaic.ValueIdx
open Cert.ReferenceIdeal Cert.ReferenceIdeal.Read

/-- The reference's last stage is the stated function of the arguments. -/
theorem result_eq (x : FVec Ideal S2048x1024 .f32) (W : FVec Ideal S16x1024x1024 .f32) (b : FVec Ideal S16x1024 .f32) :
    val_main_v4 (F := Ideal) x W b = G x W b := by
  funext i
  obtain ⟨a, n, rfl⟩ : ∃ (a : Fin 2048) (n : Fin 16384), i = ix2 a n := ⟨i 0, i 1, eq_ix2 i⟩
  have ha : a.val < 2048 := a.isLt
  have hn : n.val < 16384 := n.isLt
  rw [val_main_v4_apply, val_main_v3_apply, val_main_v0_apply, val_main_v2_apply, val_main_v1_apply, G_ix2]
  -- the batch row, the weight row and the bias entry the flattened index reads
  have hl : ∀ k : Fin 1024, lidx_main_v0 (idx_main_v4 (ix2 a n)) k = ix2 a k := fun k => funext fun d => Fin.ext (by
    match d with
    | ⟨0, _⟩ => show (a.val * 16384 + n.val) / 16384 = a.val; omega
    | ⟨1, _⟩ => rfl)
  have hr : ∀ k : Fin 1024, ridx_main_v0 (idx_main_v4 (ix2 a n)) k = ix3 (layer n) (slot n) k := fun k => funext fun d => Fin.ext (by
    match d with
    | ⟨0, _⟩ => show (a.val * 16384 + n.val) / 1024 % 16 = n.val / 1024; omega
    | ⟨1, _⟩ => show (a.val * 16384 + n.val) % 1024 = n.val % 1024; omega
    | ⟨2, _⟩ => rfl)
  have hb : idx_main_v1 (idx_main_v2 (idx_main_v4 (ix2 a n))) = ix2 (layer n) (slot n) := funext fun d => Fin.ext (by
    match d with
    | ⟨0, _⟩ => show (a.val * 16384 + n.val) / 1024 % 16 = n.val / 1024; omega
    | ⟨1, _⟩ => show (a.val * 16384 + n.val) % 1024 = n.val % 1024; omega)
  rw [hb]
  show (∑ k : Fin 1024, x (lidx_main_v0 (idx_main_v4 (ix2 a n)) k) * W (ridx_main_v0 (idx_main_v4 (ix2 a n)) k)) + b (ix2 (layer n) (slot n)) = _
  unfold entry
  exact congrArg (· + b (ix2 (layer n) (slot n))) (Finset.sum_congr rfl fun k _ => by rw [hl k, hr k])

end Cert.Stacked.Ref

end
-- ==== Proof.Tile.lean ====
/-
  One grid point's arithmetic, read at an entry.

  At a grid point the body holds a 512-row block `X` of the batch, a 2048-row block `Wb` of the flattened weights
  (one row per output column of the tile) and the matching 1 × 2048 piece `Bb` of the flattened biases. It multiplies
  `X` by the transpose of `Wb` (both operands contracted along their second axis, accumulating from zero) and adds
  the bias row to every row of the product. Over the extended reals the narrowing of the operands to sixteen bits is
  the identity, so entry (p, q) of what it stores is

      (Σ k, X p k · Wb q k) + Bb 0 q.
-/
import proofs.«113440_j14688788152638_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Stacked.Tile

open Idealize.ShloMosaic Idealize.ShloMosaic.ValueIdx
open Cert.KernelIdeal Cert.KernelIdeal.Gen

/-- The product's left operand at output entry `i` and contraction position `κ` sits in row `i 0`. -/
theorem lhs_row (i : S512x2048.Idx) (κ : dot_S512x1024_S2048x1024_S512x2048_1_1_0_0_n_n.contr.Idx) :
    (dot_S512x1024_S2048x1024_S512x2048_1_1_0_0_n_n.lhsIdx i κ 0).val = (i 0).val := by
  unfold DotDims.lhsIdx
  rw [dif_neg (show ¬(0 : Fin S512x1024.rank) ∈ dot_S512x1024_S2048x1024_S512x2048_1_1_0_0_n_n.lhsBatch by decide),
    dif_pos (show (0 : Fin S512x1024.rank) ∈ dot_S512x1024_S2048x1024_S512x2048_1_1_0_0_n_n.lhsNonContracting by decide)]
  rfl

/-- The right operand sits in row `i 1`: the weights enter untransposed, one row per output column. -/
theorem rhs_row (i : S512x2048.Idx) (κ : dot_S512x1024_S2048x1024_S512x2048_1_1_0_0_n_n.contr.Idx) :
    (dot_S512x1024_S2048x1024_S512x2048_1_1_0_0_n_n.rhsIdx i κ 0).val = (i 1).val := by
  unfold DotDims.rhsIdx
  rw [dif_neg (show ¬(0 : Fin S2048x1024.rank) ∈ dot_S512x1024_S2048x1024_S512x2048_1_1_0_0_n_n.rhsBatch by decide),
    dif_pos (show (0 : Fin S2048x1024.rank) ∈ dot_S512x1024_S2048x1024_S512x2048_1_1_0_0_n_n.rhsNonContracting by decide)]
  rfl

/-- The product accumulated from zero, at entry (p, q): the inner product of row `p` of the left operand with row `q`
    of the right one. -/
theorem product_at (A : FVec Ideal S512x1024 .bf16) (B : FVec Ideal S2048x1024 .bf16) (p : Fin 512) (q : Fin 2048) :
    matmul dot_S512x1024_S2048x1024_S512x2048_1_1_0_0_n_n none A B (constant (F := Ideal) S512x2048 .f32 0x00000000#32) (ix2 p q)
      = ∑ k : Fin 1024, A (ix2 p k) * B (ix2 q k) := by
  simp only [matmul]
  rw [Ideal.matmul_constant_zero_apply,
    ← Equiv.sum_comp (contrEquiv1 dot_S512x1024_S2048x1024_S512x2048_1_1_0_0_n_n 1024 rfl rfl).symm]
  refine Finset.sum_congr rfl fun k _ => ?_
  have hk := contrEquiv1_symm_val dot_S512x1024_S2048x1024_S512x2048_1_1_0_0_n_n 1024 rfl rfl k
  have el : dot_S512x1024_S2048x1024_S512x2048_1_1_0_0_n_n.lhsIdx (ix2 p q)
      ((contrEquiv1 dot_S512x1024_S2048x1024_S512x2048_1_1_0_0_n_n 1024 rfl rfl).symm k) = ix2 p k := funext fun a => Fin.ext (by
    match a with
    | ⟨0, _⟩ => exact lhs_row _ _
    | ⟨1, _⟩ => exact (dot_S512x1024_S2048x1024_S512x2048_1_1_0_0_n_n.lhsIdx_val_of_single rfl _ _).trans hk)
  have er : dot_S512x1024_S2048x1024_S512x2048_1_1_0_0_n_n.rhsIdx (ix2 p q)
      ((contrEquiv1 dot_S512x1024_S2048x1024_S512x2048_1_1_0_0_n_n 1024 rfl rfl).symm k) = ix2 q k := funext fun a => Fin.ext (by
    match a with
    | ⟨0, _⟩ => exact rhs_row _ _
    | ⟨1, _⟩ => exact (dot_S512x1024_S2048x1024_S512x2048_1_1_0_0_n_n.rhsIdx_val_of_single rfl _ _).trans hk)
  rw [el, er]

/-- What the body stores, at entry (p, q) of the tile. -/
theorem stored_at (X : Vec Ideal S512x1024 .f32) (Wb : Vec Ideal S2048x1024 .f32) (Bb : Vec Ideal S1x2048 .f32)
    (p : Fin 512) (q : Fin 2048) :
    k0_pay1 (F := Ideal) X Wb Bb (ix2 p q) = (∑ k : Fin 1024, X (ix2 p k) * Wb (ix2 q k)) + Bb (ix2 (0 : Fin 1) q) := by
  unfold k0_pay1
  show matmul dot_S512x1024_S2048x1024_S512x2048_1_1_0_0_n_n none (truncf .bf16 X bitsLt_bf16_f32)
        (truncf .bf16 (shapeCast S2048x1024 Wb shapeCasts_S2048x1024_S2048x1024) bitsLt_bf16_f32)
        (constant (F := Ideal) S512x2048 .f32 0x00000000#32) (ix2 p q)
      + broadcastTo S512x2048 (shapeCast S1x2048 Bb shapeCasts_S1x2048_S1x2048) broadcasts_S1x2048_S512x2048 (ix2 p q) = _
  rw [product_at, broadcastTo_1b_ab_apply, shapeCast_self, shapeCast_self]
  rfl

end Cert.Stacked.Tile

end
-- ==== Proof.Arrays.lean ====
/-
  The arrays the grid runs over.

  Before the grid starts, the host flattens the sixteen weight matrices into one 16384 × 1024 matrix (row
  `n = r·1024 + o` is row `o` of layer `r`) and the sixteen bias vectors into one 1 × 16384 row. Both are reshapes, so
  an entry of the flattened array is the entry of the argument at the same row-major position:
  flat weight (n, k) is W (n / 1024) (n % 1024) k, flat bias (0, n) is b (n / 1024) (n % 1024).
-/
import proofs.«113440_j14688788152638_2_alg».proof.Proof.Gen.KernelIdeal.Frame
import proofs.«113440_j14688788152638_2_alg».proof.Proof.Spec
import Idealize.ShloMosaic.Lib.Pipeline.Value
import Idealize.ShloMosaic.Lib.StableHlo.Run

noncomputable section

namespace Cert.Stacked.Host

open Idealize.ShloMosaic Idealize.ShloMosaic.TcCoe Idealize.ShloMosaic.ValueIdx Idealize.SL.Sem
open Idealize.ShloMosaic.StableHlo
open Cert.KernelIdeal Cert.KernelIdeal.Gen

variable {α : Type}

/-- A flattened weight entry: row `n`, column `k` reads layer `n / 1024`, output `n % 1024`, input `k`. -/
theorem flat_weight_at (w : S16x1024x1024.Idx → α) (y : S16384x1024.Idx) (n : Fin 16384) (k : Fin 1024)
    (hn : (y 0).val = n.val) (hk : (y 1).val = k.val) :
    shapeCast S16384x1024 w shapeCasts_S16x1024x1024_S16384x1024 y = w (ix3 (layer n) (slot n) k) :=
  shapeCast_apply w _ y _ (by
    rw [Shape.rowMajor_val_three, Shape.rowMajor_val_two]
    show (n.val / 1024 * 1024 + n.val % 1024) * 1024 + k.val = (y 0).val * 1024 + (y 1).val
    rw [hn, hk]; omega)

/-- A flattened bias entry: column `n` of the one row reads layer `n / 1024`, output `n % 1024`. -/
theorem flat_bias_at (v : S16x1024.Idx → α) (y : S1x16384.Idx) (n : Fin 16384)
    (h0 : (y 0).val = 0) (hn : (y 1).val = n.val) :
    shapeCast S1x16384 v shapeCasts_S16x1024_S1x16384 y = v (ix2 (layer n) (slot n)) :=
  shapeCast_apply v _ y _ (by
    rw [Shape.rowMajor_val_two, Shape.rowMajor_val_two]
    show n.val / 1024 * 1024 + n.val % 1024 = (y 0).val * 16384 + (y 1).val
    rw [h0, hn]; omega)

variable (m : (ℓ : Loc nD τ sig) → Buf (Elt Ideal) ℓ)

/-- When the grid starts, the second operand's array is the weight argument flattened. -/
theorem weights_flat (c : Dev nD) :
    (V m c main_v0 : S16384x1024.Idx → EReal)
      = shapeCast S16384x1024 (m ((c : Thread nD τ).loc main_arg1)) shapeCasts_S16x1024x1024_S16384x1024 := by
  dsimp only [Gen.V, Gen.hostOps0]; after_results; rfl

/-- And the third operand's array is the bias argument flattened into one row. -/
theorem biases_flat (c : Dev nD) :
    (V m c main_v1 : S1x16384.Idx → EReal)
      = shapeCast S1x16384 (m ((c : Thread nD τ).loc main_arg2)) shapeCasts_S16x1024_S1x16384 := by
  dsimp only [Gen.V, Gen.hostOps0]; after_results; rfl

end Cert.Stacked.Host

end
-- ==== Proof.KernelValue.lean ====
/-
  From tiles to the whole array.

  The grid has 4 × 8 points. Point (s, u) reads rows 512·s … 512·s + 511 of the batch, rows 2048·u … 2048·u + 2047 of
  the flattened weights and columns 2048·u … of the flattened bias row, and writes tile (s, u) of the result: rows
  512·s …, columns 2048·u …. Entry (p, q) of that tile is result entry (512·s + p, 2048·u + q); the batch row it uses is
  row 512·s + p, the weight row is flat row 2048·u + q, the bias is flat column 2048·u + q — exactly what the stated
  function reads at that result entry. So every point writes back its tile of the stated function, the 32 tiles cover
  the 2048 × 16384 array, and the array ends holding the stated function of the arguments.
-/
import proofs.«113440_j14688788152638_2_alg».proof.Proof.Gen.KernelIdeal.Value
import proofs.«113440_j14688788152638_2_alg».proof.Proof.Spec
import proofs.«113440_j14688788152638_2_alg».proof.Proof.Tile
import proofs.«113440_j14688788152638_2_alg».proof.Proof.Arrays
import Idealize.ShloMosaic.Lib.Pipeline.Value

noncomputable section

namespace Cert.Stacked.Kernel

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Value

variable (m : (ℓ : Loc nD τ sig) → Buf (Elt Ideal) ℓ) (ρ : Dev nD → PrngReg)

theorem origin : (![0, 0] : Fin 2 → Nat) = fun _ => 0 := funext fun a => by fin_cases a <;> rfl

/-- Where each operand's block sits relative to the result's tile, at every grid point: the batch block shares the
    tile's row index, the weight block's row index and the bias block's column index are the tile's column index,
    every other block index is zero; and the tile indices stay within 4 × 8. -/
theorem tiles : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 3 ∧ win0_3.index t (1 : Fin 2) ≤ 7 :=
  (by decide +kernel : ∀ t : Fin grid0.N, _)

/-- Every one of the 4 × 8 tiles is some grid point's. -/
theorem tiles_onto : ∀ (s : Fin 4) (u : Fin 8), ∃ t : Fin cfg0.N, win0_3.index t = ![s.val, u.val] :=
  (by decide +kernel : ∀ (s : Fin 4) (u : Fin 8), ∃ t : Fin grid0.N, win0_3.index t = ![s.val, u.val])

/-- A tile entry is the stated function's entry, whenever the three blocks hold what that entry reads. -/
theorem tile_entry (X : Vec Ideal S512x1024 .f32) (Wb : Vec Ideal S2048x1024 .f32) (Bb : Vec Ideal S1x2048 .f32)
    (x : FVec Ideal S2048x1024 .f32) (W : FVec Ideal S16x1024x1024 .f32) (b : FVec Ideal S16x1024 .f32)
    (j : S512x2048.Idx) (i : S2048x16384.Idx) (p : Fin 512) (q : Fin 2048) (a : Fin 2048) (n : Fin 16384)
    (hj0 : j 0 = p) (hj1 : j 1 = q) (hi0 : i 0 = a) (hi1 : i 1 = n)
    (hX : ∀ k : Fin 1024, X (ix2 p k) = x (ix2 a k))
    (hW : ∀ k : Fin 1024, Wb (ix2 q k) = W (ix3 (layer n) (slot n) k))
    (hB : Bb (ix2 (0 : Fin 1) q) = b (ix2 (layer n) (slot n))) :
    k0_pay1 (F := Ideal) X Wb Bb j = G x W b i := by
  have ej : j = ix2 p q := by subst hj0 hj1; exact eq_ix2 j
  rw [ej, Tile.stored_at]
  show _ = entry x W b (i 0) (i 1)
  rw [hi0, hi1, hB]
  unfold entry
  exact congrArg (· + b (ix2 (layer n) (slot n))) (Finset.sum_congr rfl fun k _ => by rw [hX k, hW k])

/-- What a grid point writes back is its tile of the stated function of the argument arrays. -/
theorem flushed_eq (c : Dev nD) (t : Fin cfg0.N) :
    (dats m 0 c).flushed 3 t = ((cfg0.win 3).blk t).view.read (Elt Ideal)
      (G (m ((c : Thread nD τ).loc main_arg0)) (m ((c : Thread nD τ).loc main_arg1)) (m ((c : Thread nD τ).loc main_arg2))) := by
  rw [flushed3]
  unfold out0_3
  rw [View.canon_unit_zero origin]
  simp only [View.ld_unit_zero (S := S512x1024) origin, View.ld_unit_zero (S := S2048x1024) origin,
    View.ld_unit_zero (S := S1x2048) origin]
  obtain ⟨e00, e01, e10, e11, e20, e21, -, -⟩ := tiles t
  funext j
  show k0_pay1 (F := Ideal) (iblk m c 0 t) (iblk m c 1 t) (iblk m c 2 t) j
    = G (m ((c : Thread nD τ).loc main_arg0)) (m ((c : Thread nD τ).loc main_arg1)) (m ((c : Thread nD τ).loc main_arg2))
        (((cfg0.win 3).blk t).view.emb j)
  refine tile_entry _ _ _ _ _ _ j _ (j 0) (j 1) _ _ rfl rfl rfl rfl (fun k => ?_) (fun k => ?_) ?_
  · -- the batch block's row p is batch row 512·s + p
    show V m c main_arg0 (((cfg0.win 0).blk t).view.emb (ix2 (j 0) k)) = _
    rw [V_main_arg0]
    refine congrArg (m ((c : Thread nD τ).loc main_arg0) : S2048x1024.Idx → EReal) (funext fun d => Fin.ext ?_)
    match d with
    | ⟨0, _⟩ =>
      show win0_0.index t (0 : Fin 2) * 512 + 1 * (j 0).val = win0_3.index t (0 : Fin 2) * 512 + 1 * (j 0).val
      rw [e00]
    | ⟨1, _⟩ =>
      show win0_0.index t (1 : Fin 2) * 1024 + 1 * k.val = k.val
      rw [e01]; omega
  · -- the weight block's row q is flat weight row 2048·u + q
    show V m c main_v0 (((cfg0.win 1).blk t).view.emb (ix2 (j 1) k)) = _
    rw [Host.weights_flat]
    refine Host.flat_weight_at _ _ _ k ?_ ?_
    · show win0_1.index t (0 : Fin 2) * 2048 + 1 * (j 1).val = win0_3.index t (1 : Fin 2) * 2048 + 1 * (j 1).val
      rw [e10]
    · show win0_1.index t (1 : Fin 2) * 1024 + 1 * k.val = k.val
      rw [e11]; omega
  · -- the bias block's column q is flat bias column 2048·u + q
    show V m c main_v1 (((cfg0.win 2).blk t).view.emb (ix2 (0 : Fin 1) (j 1))) = _
    rw [Host.biases_flat]
    refine Host.flat_bias_at _ _ _ ?_ ?_
    · show win0_2.index t (0 : Fin 2) * 1 + 1 * 0 = 0
      rw [e20]
    · show win0_2.index t (1 : Fin 2) * 2048 + 1 * (j 1).val = win0_3.index t (1 : Fin 2) * 2048 + 1 * (j 1).val
      rw [e21]

/-- A result index lies in a point's tile exactly when each coordinate is within the tile's range. -/
theorem mem_tile (t : Fin cfg0.N) (i : S2048x16384.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v2).slice (win0_3.rect t)).set ↔ _
  rw [View.set_slice_whole, Rect.mem_set_unit]
  exact Iff.rfl

/-- The tiles cover the result: entry (a, n) lies in tile (a / 512, n / 2048). -/
theorem covered (i : S2048x16384.Idx) :
    ∃ t : Fin cfg0.N, (cfg0.win 3).flush t = true ∧ i ∈ ((cfg0.win 3).blk t).view.set := by
  have hi0 : (i 0).val < 2048 := (i 0).isLt
  have hi1 : (i 1).val < 16384 := (i 1).isLt
  obtain ⟨t, ht⟩ := tiles_onto ⟨(i 0).val / 512, by omega⟩ ⟨(i 1).val / 2048, by omega⟩
  have q0 : win0_3.index t (0 : Fin 2) = (i 0).val / 512 := congrFun ht 0
  have q1 : win0_3.index t (1 : Fin 2) = (i 1).val / 2048 := congrFun ht 1
  refine ⟨t, flush0_3 t, ?_⟩
  rw [mem_tile]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 2048 ≤ (i 1).val ∧ (i 1).val < win0_3.index t (1 : Fin 2) * 2048 + 2048
    omega

/-- After the run the result array is the stated function of the argument arrays. -/
theorem final (c : Dev nD) :
    (dats m 0 c).arrAt 3 cfg0.N
      = G (m ((c : Thread nD τ).loc main_arg0)) (m ((c : Thread nD τ).loc main_arg1)) (m ((c : Thread nD τ).loc main_arg2)) :=
  (dats m 0 c).arrAt_eq_of_cover 3 _ (fun t _ => flushed_eq m c t) covered

/-- The kernel's run, read: every weakly fair execution ends with the result array at the stated function of the
    arguments and the arguments unchanged. -/
theorem run : θ_run defs (onTc (τ := τ) (main (F := Ideal))) ⟨m, fun _ => 0, ρ⟩ fun r => ∀ c : Dev nD,
      r.2.mem ((c : Thread nD τ).loc main_v2)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.Stacked.Kernel

end
-- ==== Proof.lean ====
/-
  Sixteen linear layers on one batch, as one tiled matrix product, against the reference's single contraction.

  The kernel flattens the sixteen weight matrices into one 16384 × 1024 matrix and the biases into one row, and sweeps a
  4 × 8 grid of 512 × 2048 tiles; each tile is the product of a block of batch rows with the transpose of a block of
  flattened weight rows, plus the bias row. The reference contracts the batch with all the weights at once, adds the
  biases, and flattens the (layer, output) axes. Over the extended reals both end with the same array: entry (a, n) is

      (Σ k, x a k · W (n / 1024) (n % 1024) k) + b (n / 1024) (n % 1024)

  (`Cert.Stacked.G`), each side producing the sum in this very arrangement, so the two results are equal for all
  inputs, infinite ones included; the finiteness precondition is not used.

  The kernel's side: what one grid point stores (`Tile`), the flattened arrays it reads (`Arrays`), and the tiles
  assembled into the whole array (`KernelValue`, over the generated frame run and its per-point write-back). The
  reference's side: its generated run read one operation at a time (`RefValue`). The three frame claims are the
  generated frame runs; the idealization rewrote nothing, so there is nothing to preserve.
-/
import proofs.«113440_j14688788152638_2_alg».proof.Defs
import proofs.«113440_j14688788152638_2_alg».proof.Proof.Gen.Kernel
import proofs.«113440_j14688788152638_2_alg».proof.Proof.Gen.Kernel.Skeleton
import proofs.«113440_j14688788152638_2_alg».proof.Proof.Gen.Kernel.Launch
import proofs.«113440_j14688788152638_2_alg».proof.Proof.Gen.Kernel.Points
import proofs.«113440_j14688788152638_2_alg».proof.Proof.Gen.Kernel.Frame
import proofs.«113440_j14688788152638_2_alg».proof.Proof.Gen.KernelIdeal
import proofs.«113440_j14688788152638_2_alg».proof.Proof.Gen.KernelIdeal.Skeleton
import proofs.«113440_j14688788152638_2_alg».proof.Proof.Gen.KernelIdeal.Launch
import proofs.«113440_j14688788152638_2_alg».proof.Proof.Gen.KernelIdeal.Points
import proofs.«113440_j14688788152638_2_alg».proof.Proof.Gen.KernelIdeal.Frame
import proofs.«113440_j14688788152638_2_alg».proof.Proof.Gen.ReferenceIdeal
import proofs.«113440_j14688788152638_2_alg».proof.Proof.Gen.Pre_finite_inputs
import proofs.«113440_j14688788152638_2_alg».proof.Proof.Gen.KernelIdeal.Value
import proofs.«113440_j14688788152638_2_alg».proof.Proof.Gen.ReferenceIdeal.Run
import proofs.«113440_j14688788152638_2_alg».proof.Proof.Gen.ReferenceIdeal.Read
import proofs.«113440_j14688788152638_2_alg».proof.Proof.Spec
import proofs.«113440_j14688788152638_2_alg».proof.Proof.RefValue
import proofs.«113440_j14688788152638_2_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the array `G` of their (agreeing) arguments. -/
theorem algebraic : Cert.algebraic_KernelIdeal_ReferenceIdeal := by
  intro m ρ m' ρ' _ hagree
  refine ⟨fun c => Cert.Stacked.G (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.Stacked.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.Stacked.Ref.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
